-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S64 : Shape := ⟨1, ![64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64 : S_.BroadcastsInDim S64 (![] : Fin 0 → Fin S64.rank)
  reducesTo_S64_S_d0 : S64.ReducesTo [0] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S8192x64 .f32) (main_arg1 : FVec F S8192x64 .f32) (main_arg2 : FVec F S64 .f32) (main_arg3 : FVec F S_ .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S8192x64 : Shape := ⟨2, ![8192, 64]⟩
abbrev S64 : Shape := ⟨1, ![64]⟩
abbrev S_ : Shape := ⟨0, ![]⟩
abbrev S1x64 : Shape := ⟨2, ![1, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x64 : Shape := ⟨2, ![1024, 64]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 52
  | .vmem => 10
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S64, .f32⟩
  | .hbm, ⟨3, _⟩ => ⟨S_, .f32⟩
  | .hbm, ⟨4, _⟩ => ⟨S_, .f32⟩
  | .hbm, ⟨5, _⟩ => ⟨S64, .f32⟩
  | .hbm, ⟨6, _⟩ => ⟨S64, .i1⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .i1⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S1x64, .f32⟩
  | .hbm, ⟨26, _⟩ => ⟨S8192x64, .f32⟩
  | .hbm, ⟨27, _⟩ => ⟨S8192x64, .f32⟩
  | .hbm, ⟨28, _⟩ => ⟨S1x64, .f32⟩
  | .hbm, ⟨29, _⟩ => ⟨S8192x64, .f32⟩
  | .hbm, ⟨30, _⟩ => ⟨S8192x64, .f32⟩
  | .hbm, ⟨31, _⟩ => ⟨S8192x64, .bf16⟩
  | .hbm, ⟨32, _⟩ => ⟨S8192x64, .bf16⟩
  | .hbm, ⟨33, _⟩ => ⟨S8192x64, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x64, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S1x8192, .f32⟩
  | .hbm, ⟨42, _⟩ => ⟨S_, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S1x8192, .f32⟩
  | .hbm, ⟨50, _⟩ => ⟨S1x8192, .f32⟩
  | .hbm, ⟨51, _⟩ => ⟨S8192x8192, .f32⟩
  | .local _ .vmem, ⟨0, _⟩ => ⟨S1024x64, .bf16⟩
  | .local _ .vmem, ⟨1, _⟩ => ⟨S1024x64, .bf16⟩
  | .local _ .vmem, ⟨2, _⟩ => ⟨S1024x64, .bf16⟩
  | .local _ .vmem, ⟨3, _⟩ => ⟨S1024x64, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S64 : S_.BroadcastsInDim S64 (![] : Fin 0 → Fin S64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bitsLt_bf16_f32 : FTy.bits .bf16 < FTy.bits .f32
  reducesTo_S8192x64_S8192_d1 : S8192x64.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S_S8192x1 : S_.BroadcastsInDim S8192x1 (![] : Fin 0 → Fin S8192x1.rank)
  bcast_S_S1x8192 : S_.BroadcastsInDim S1x8192 (![] : Fin 0 → Fin S1x8192.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .bf16 = 32 ∨ (Rect.block (s := S8192x64) S1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .bf16 = 32 ∨ (Rect.block (s := S8192x64) S1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_v22) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S64 : Shape := ⟨1, ![64]⟩
abbrev S_ : Shape := ⟨0, ![]⟩
abbrev S1x64 : Shape := ⟨2, ![1, 64]⟩
abbrev S8192 : Shape := ⟨1, ![8192]⟩
abbrev S64x8192 : Shape := ⟨2, ![64, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 54
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S64, .f32⟩
  | .hbm, ⟨3, _⟩ => ⟨S_, .f32⟩
  | .hbm, ⟨4, _⟩ => ⟨S_, .f32⟩
  | .hbm, ⟨5, _⟩ => ⟨S64, .f32⟩
  | .hbm, ⟨6, _⟩ => ⟨S64, .i1⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .i1⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S1x64, .f32⟩
  | .hbm, ⟨26, _⟩ => ⟨S8192x64, .f32⟩
  | .hbm, ⟨27, _⟩ => ⟨S8192x64, .f32⟩
  | .hbm, ⟨28, _⟩ => ⟨S1x64, .f32⟩
  | .hbm, ⟨29, _⟩ => ⟨S8192x64, .f32⟩
  | .hbm, ⟨30, _⟩ => ⟨S8192x64, .f32⟩
  | .hbm, ⟨31, _⟩ => ⟨S8192x64, .f32⟩
  | .hbm, ⟨32, _⟩ => ⟨S_, .f32⟩
  | .hbm, ⟨33, _⟩ => ⟨S8192, .f32⟩
  | .hbm, ⟨34, _⟩ => ⟨S8192x64, .f32⟩
  | .hbm, ⟨35, _⟩ => ⟨S_, .f32⟩
  | .hbm, ⟨36, _⟩ => ⟨S8192, .f32⟩
  | .hbm, ⟨37, _⟩ => ⟨S64x8192, .f32⟩
  | .hbm, ⟨38, _⟩ => ⟨S8192x8192, .f32⟩
  | .hbm, ⟨39, _⟩ => ⟨S8192x1, .f32⟩
  | .hbm, ⟨40, _⟩ => ⟨S1x8192, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  transposes_S8192x64_S64x8192_1_0 : S8192x64.Transposes [1, 0] S64x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.RbfSpec.lean ====
/-
  The radial-basis-function Gram matrix, as ONE function of the four argument arrays, in the two arrangements
  the programs compute it in.

  With `softplus x = x` for `x > 36` and `log (1 + e^(min x 36))` otherwise, a length scale `ℓ_k = softplus L_k`
  per feature, the scaled features `X̃_{ik} = X_{ik} · √(1 / ℓ_k²)` (and `Z̃` likewise), the squared norms
  `|X̃_i|² = ∑_k X̃_{ik}²`, the cross term `⟨X̃_i, Z̃_j⟩ = ∑_k X̃_{ik} Z̃_{jk}` and the amplitude `σ = softplus s`:

    `refVal`  is  σ · exp (-½ · ((|X̃_i|² + |Z̃_j|²) - 2 · ⟨X̃_i, Z̃_j⟩)),
    `kerVal`  is  exp (((-½ · |X̃_i|² + log σ) + -½ · |Z̃_j|²) + ⟨X̃_i, Z̃_j⟩),

  every operation the extended reals' (the float words are kept as words: the same word on both sides is never
  evaluated here). The two are one function where the arguments are finite, since then σ is a positive real and
  every sum is a real number: `exp (a + log σ) = σ · exp a`.
-/
import Idealize.ShloMosaic.PureOps.Ideal
import Idealize.ShloMosaic.Lib.ValueIdx

noncomputable section

open scoped BigOperators

namespace Cert.Rbf

open Idealize.ShloMosaic Idealize.ShloMosaic.ValueIdx

/-- The f32 words of the two programs: 36, 1, 0, 2 and -1/2. -/
abbrev w36 : EReal := Ideal.ofBits .f32 0x42100000#32
abbrev w1 : EReal := Ideal.ofBits .f32 0x3F800000#32
abbrev w0 : EReal := Ideal.ofBits .f32 0x00000000#32
abbrev w2 : EReal := Ideal.ofBits .f32 0x40000000#32
abbrev wmh : EReal := Ideal.ofBits .f32 0xBF000000#32

/-- `x` above 36, `log (1 + e^(min x 36))` otherwise. -/
def softplus (x : EReal) : EReal :=
  Scalar.select (Ideal.cmp .ogt x w36) x (Ideal.log1p (Ideal.exp (min x w36)))

/-- The factor a feature is scaled by: `√(1 / ℓ²)` for the length scale `ℓ = softplus l`. -/
def scale (l : EReal) : EReal := Ideal.sqrt (Ideal.div w1 (softplus l * softplus l))

abbrev SF : Shape := ⟨2, ![8192, 64]⟩
abbrev SL : Shape := ⟨1, ![64]⟩
abbrev S0 : Shape := ⟨0, ![]⟩
abbrev SG : Shape := ⟨2, ![8192, 8192]⟩

/-- Row `i`, feature `k` of a feature array, scaled. -/
def feat (A : SF.Idx → EReal) (L : SL.Idx → EReal) (i : Fin 8192) (k : Fin 64) : EReal :=
  A (ix2 i k) * scale (L (ix1 k))

/-- The squared norm of scaled row `i` (summed from the zero word, as both programs do). -/
def sqn (A : SF.Idx → EReal) (L : SL.Idx → EReal) (i : Fin 8192) : EReal :=
  w0 + ∑ k : Fin 64, feat A L i k * feat A L i k

/-- The inner product of scaled row `i` of `X` and scaled row `j` of `Z`. -/
def cross (X Z : SF.Idx → EReal) (L : SL.Idx → EReal) (i j : Fin 8192) : EReal :=
  ∑ k : Fin 64, feat X L i k * feat Z L j k

/-- The amplitude. -/
def amp (sg : S0.Idx → EReal) : EReal := softplus (sg ix0)

/-- The Gram matrix as the reference arranges it. -/
def refVal (X Z : SF.Idx → EReal) (L : SL.Idx → EReal) (sg : S0.Idx → EReal) : SG.Idx → EReal := fun p =>
  amp sg * Ideal.exp (wmh * ((sqn X L (p 0) + sqn Z L (p 1)) - w2 * cross X Z L (p 0) (p 1)))

/-- The Gram matrix as the kernel arranges it. -/
def kerVal (X Z : SF.Idx → EReal) (L : SL.Idx → EReal) (sg : S0.Idx → EReal) : SG.Idx → EReal := fun p =>
  Ideal.exp (((wmh * sqn X L (p 0) + Ideal.log (amp sg)) + wmh * sqn Z L (p 1)) + cross X Z L (p 0) (p 1))

end Cert.Rbf

end
-- ==== Proof.RbfLaw.lean ====
/-
  The two arrangements of the radial-basis-function Gram matrix are one function on finite arguments.

  On finite arguments every length scale and the amplitude are positive reals, every scaled feature is a real,
  and the sums are real; the identity is then `exp (a + log σ) = σ · exp a` with
  `a = -½ x² - ½ z² + c = -½ ((x² + z²) - 2 c)`.
-/
import proofs.«106261_j44865228374551_2_alg».proof.Proof.RbfSpec

noncomputable section

open scoped BigOperators

namespace Cert.Rbf

open Idealize.ShloMosaic Idealize.ShloMosaic.ValueIdx

/-! ### The five words -/

theorem w0_eq : w0 = 0 := by
  simp [w0, Ideal.ofBits, Ideal.ieee]

theorem w1_eq : w1 = ((1 : ℝ) : EReal) := by
  simp [w1, Ideal.ofBits, Ideal.ieee, -EReal.coe_mul]; norm_num

theorem w2_eq : w2 = ((2 : ℝ) : EReal) := by
  simp [w2, Ideal.ofBits, Ideal.ieee, -EReal.coe_mul]; norm_num

theorem w36_eq : w36 = ((36 : ℝ) : EReal) := by
  simp [w36, Ideal.ofBits, Ideal.ieee, -EReal.coe_mul]; norm_num

theorem wmh_eq : wmh = ((-(1/2) : ℝ) : EReal) := by
  simp [wmh, Ideal.ofBits, Ideal.ieee, -EReal.coe_mul]; norm_num

/-! ### The softplus of a real is a positive real -/

theorem softplus_coe (r : ℝ) : ∃ s : ℝ, 0 < s ∧ softplus (r : EReal) = (s : EReal) := by
  unfold softplus
  rw [w36_eq]
  by_cases h : (36 : ℝ) < r
  · refine ⟨r, by linarith, ?_⟩
    have hc : Ideal.cmp .ogt (r : EReal) ((36 : ℝ) : EReal) = 1 := by
      simp [Ideal.cmp, h]
    rw [hc]
    simp [Scalar.select]
  · have hr : r ≤ 36 := not_lt.1 h
    refine ⟨Real.log (1 + Real.exp r), ?_, ?_⟩
    · apply Real.log_pos
      linarith [Real.exp_pos r]
    · have hc : Ideal.cmp .ogt (r : EReal) ((36 : ℝ) : EReal) = 0 := by
        simp [Ideal.cmp, h]
      have hm : min (r : EReal) ((36 : ℝ) : EReal) = (r : EReal) :=
        min_eq_left (EReal.coe_le_coe_iff.2 hr)
      have hpos : ¬ (1 + Real.exp r ≤ 0) := by
        linarith [Real.exp_pos r]
      rw [hc, hm]
      have h1 : (1 : EReal) + ((Real.exp r : ℝ) : EReal) = ((1 + Real.exp r : ℝ) : EReal) := by
        rw [EReal.coe_add, EReal.coe_one]
      simp only [Scalar.select, Ideal.log1p, Ideal.exp_coe, h1, Ideal.log_coe, if_neg hpos]
      simp

/-! ### The scale of a real length parameter is a real -/

theorem scale_coe (r : ℝ) : ∃ t : ℝ, scale (r : EReal) = (t : EReal) := by
  obtain ⟨s, hs, he⟩ := softplus_coe r
  have hss : s * s ≠ 0 := (mul_pos hs hs).ne'
  have hnn : ¬ (1 * (1 / (s * s)) < 0) := by
    have : 0 < 1 * (1 / (s * s)) := by positivity
    linarith
  refine ⟨Real.sqrt (1 * (1 / (s * s))), ?_⟩
  unfold scale
  rw [he, w1_eq, ← EReal.coe_mul, Ideal.div_coe hss, ← EReal.coe_mul, Ideal.sqrt_coe, if_neg hnn]

/-! ### Finite sums of reals -/

theorem coe_sum {ι : Type} (s : Finset ι) (f : ι → ℝ) :
    ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-! ### The scaled features, the squared norms and the cross term are real -/

theorem feat_coe (A : SF.Idx → EReal) (L : SL.Idx → EReal)
    (hA : ∀ i, ∃ r : ℝ, A i = (r : EReal)) (hL : ∀ i, ∃ r : ℝ, L i = (r : EReal)) :
    ∃ f : Fin 8192 → Fin 64 → ℝ, ∀ i k, feat A L i k = (f i k : EReal) := by
  choose a ha using hA
  choose l hl using hL
  choose t ht using scale_coe
  refine ⟨fun i k => a (ix2 i k) * t (l (ix1 k)), fun i k => ?_⟩
  unfold feat
  rw [ha, hl, ht, EReal.coe_mul]

theorem sqn_coe (A : SF.Idx → EReal) (L : SL.Idx → EReal) (f : Fin 8192 → Fin 64 → ℝ)
    (hf : ∀ i k, feat A L i k = (f i k : EReal)) (i : Fin 8192) :
    sqn A L i = ((∑ k : Fin 64, f i k * f i k : ℝ) : EReal) := by
  unfold sqn
  rw [w0_eq, zero_add, ← coe_sum]
  refine Finset.sum_congr rfl fun k _ => ?_
  rw [hf, EReal.coe_mul]

theorem cross_coe (X Z : SF.Idx → EReal) (L : SL.Idx → EReal) (f g : Fin 8192 → Fin 64 → ℝ)
    (hf : ∀ i k, feat X L i k = (f i k : EReal)) (hg : ∀ i k, feat Z L i k = (g i k : EReal))
    (i j : Fin 8192) :
    cross X Z L i j = ((∑ k : Fin 64, f i k * g j k : ℝ) : EReal) := by
  unfold cross
  rw [← coe_sum]
  refine Finset.sum_congr rfl fun k _ => ?_
  rw [hf, hg, EReal.coe_mul]

/-! ### The identity on reals -/

theorem core_real (a b c σ : ℝ) (hσ : 0 < σ) :
    Real.exp (((-(1/2) * a + Real.log σ) + -(1/2) * b) + c)
      = σ * Real.exp (-(1/2) * ((a + b) - 2 * c)) := by
  have h : ((-(1/2) * a + Real.log σ) + -(1/2) * b) + c
      = Real.log σ + -(1/2) * ((a + b) - 2 * c) := by ring
  rw [h, Real.exp_add, Real.exp_log hσ]

theorem core (a b c σ : ℝ) (hσ : 0 < σ) :
    Ideal.exp (((wmh * (a : EReal) + Ideal.log (σ : EReal)) + wmh * (b : EReal)) + (c : EReal))
      = (σ : EReal) * Ideal.exp (wmh * (((a : EReal) + (b : EReal)) - w2 * (c : EReal))) := by
  rw [wmh_eq, w2_eq, Ideal.log_coe, if_neg (not_le.2 hσ)]
  simp only [← EReal.coe_mul, ← EReal.coe_add, ← EReal.coe_sub, Ideal.exp_coe]
  rw [core_real a b c σ hσ]

/-! ### The two arrangements agree -/

theorem kerVal_eq_refVal (X Z : SF.Idx → EReal) (L : SL.Idx → EReal) (sg : S0.Idx → EReal)
    (hX : ∀ i, ∃ r : ℝ, X i = (r : EReal)) (hZ : ∀ i, ∃ r : ℝ, Z i = (r : EReal))
    (hL : ∀ i, ∃ r : ℝ, L i = (r : EReal)) (hs : ∀ i, ∃ r : ℝ, sg i = (r : EReal)) :
    kerVal X Z L sg = refVal X Z L sg := by
  obtain ⟨f, hf⟩ := feat_coe X L hX hL
  obtain ⟨g, hg⟩ := feat_coe Z L hZ hL
  obtain ⟨r, hr⟩ := hs ix0
  obtain ⟨σ, hσ, hσe⟩ := softplus_coe r
  have ha : amp sg = (σ : EReal) := by unfold amp; rw [hr, hσe]
  have key : ∀ (sx sz cr : EReal) (a b c : ℝ), sx = (a : EReal) → sz = (b : EReal) → cr = (c : EReal) →
      Ideal.exp (((wmh * sx + Ideal.log (σ : EReal)) + wmh * sz) + cr)
        = (σ : EReal) * Ideal.exp (wmh * ((sx + sz) - w2 * cr)) := by
    intro sx sz cr a b c h1 h2 h3
    rw [h1, h2, h3]
    exact core a b c σ hσ
  funext p
  unfold kerVal refVal
  rw [ha]
  exact key _ _ _ _ _ _ (sqn_coe X L f hf (p 0)) (sqn_coe Z L g hg (p 1))
    (cross_coe X Z L f g hf hg (p 0) (p 1))

end Cert.Rbf

end
-- ==== Proof.FiniteArgs.lean ====
/-
  From the precondition to finiteness: the precondition says `|x| < +∞` for every entry `x` of each of the four
  argument arrays (each array's comparisons reduced by `and`, the four results joined by `and`). An extended real
  whose absolute value is below `+∞` is neither `⊥` nor `⊤`, so every entry is a real number.
-/
import proofs.«106261_j44865228374551_2_alg».proof.Proof.RbfSpec
import proofs.«106261_j44865228374551_2_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Rbf.Fin

open Idealize.ShloMosaic Idealize.ShloMosaic.ValueIdx Cert.Rbf

/-- The word `0x7F800000` is `+∞`. -/
theorem inf_word : Ideal.ofBits .f32 0x7F800000#32 = ⊤ := by simp [Ideal.ofBits, Ideal.ieee]

/-- An extended real with `|x| < +∞` is a real. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => exfalso; revert h; simp [Ideal.cmp]
  | coe r => exact ⟨r, rfl⟩
  | top => exfalso; revert h; simp [Ideal.cmp]

/-- A rank-zero array has one index. -/
instance : Subsingleton Cert.Pre_finite_inputs.S_.Idx := ⟨fun a b => funext fun d => d.elim0⟩

/-- Under the precondition every entry of every argument array is a real number. -/
theorem finite_of_pre [Cert.Pre_finite_inputs.Facts] (a0 a1 : SF.Idx → EReal) (a2 : SL.Idx → EReal) (a3 : S0.Idx → EReal)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun i => real_of_abs_lt (a0 i) (Host.reduce_andi_all _ _ _ _ _ h1 i),
    fun i => real_of_abs_lt (a1 i) (Host.reduce_andi_all _ _ _ _ _ h2 i),
    fun i => real_of_abs_lt (a2 i) (Host.reduce_andi_all _ _ _ _ _ h3 i),
    fun i => real_of_abs_lt (a3 i) (Host.reduce_andi_all _ _ _ _ _ h4 i)⟩

end Cert.Rbf.Fin

end
-- ==== Proof.RefValue.lean ====
/-
  The reference program's stages, read at an index, are the named pieces of the radial-basis-function
  Gram matrix: the softplus of a raw length scale, the scale factor `√(1 / ℓ²)`, a scaled feature, a squared
  norm, the cross term and the amplitude; the last stage is `refVal`.
-/
import proofs.«106261_j44865228374551_2_alg».proof.Proof.RbfSpec
import proofs.«106261_j44865228374551_2_alg».proof.Proof.Gen.ReferenceIdeal.Read
import Idealize.ShloMosaic.Lib.ValueIdx
import Idealize.ShloMosaic.Lib.Pipeline.Value
import Idealize.ShloMosaic.PureOps.Ideal.Laws

noncomputable section

open scoped BigOperators

namespace Cert.Rbf.Ref

open Cert.ReferenceIdeal Cert.ReferenceIdeal.Read Idealize.ShloMosaic Idealize.ShloMosaic.ValueIdx Cert.Rbf

variable [Cert.ReferenceIdeal.Facts]

/-- The softplus of the raw length scale of feature `k`. -/
theorem softplus_eq (x2 : (⟨S64, .f32⟩ : BufTy).Contents (Elt Ideal)) (k : Fin 64) :
    val_main_v6 (F := Ideal) x2 (ix1 k) = softplus (x2 (ix1 k)) := by
  rw [val_main_v6_apply, val_main_v1_apply, val_main_v5_apply, val_main_v4_apply, val_main_v3_apply,
    val_main_v0_apply, val_main_v2_apply, val_main_cst_apply, val_main_cst_0_apply]
  simp only [Ideal.minimumf_def, Ideal.hostUnary_exp_def, Ideal.hostUnary_log1p_def, Ideal.ofBits_def]
  rfl

/-- The amplitude: the softplus of the raw amplitude. -/
theorem amp_eq (x3 : (⟨S_, .f32⟩ : BufTy).Contents (Elt Ideal)) :
    val_main_v11 (F := Ideal) x3 ix0 = amp x3 := by
  rw [val_main_v11_apply, val_main_v7_apply, val_main_v10_apply, val_main_v9_apply, val_main_v8_apply,
    val_main_cst_1_apply, val_main_cst_2_apply]
  simp only [Ideal.minimumf_def, Ideal.hostUnary_exp_def, Ideal.hostUnary_log1p_def, Ideal.ofBits_def]
  rfl

/-- The factor feature `k` is scaled by. -/
theorem scale_eq (x2 : (⟨S64, .f32⟩ : BufTy).Contents (Elt Ideal)) (k : Fin 64) :
    val_main_v15 (F := Ideal) x2 (ix1 k) = scale (x2 (ix1 k)) := by
  rw [val_main_v15_apply, val_main_v14_apply, val_main_v12_apply, val_main_v13_apply, val_main_cst_3_apply,
    softplus_eq]
  simp only [Ideal.mulf_def, Ideal.hostDivf_def, Ideal.hostUnary_sqrt_def, Ideal.ofBits_def]
  rfl

/-- The two broadcasts that spread the scale factors over the rows read factor `k` at column `k`. -/
theorem idx_feat (i : Fin 8192) (k : Fin 64) : idx_main_v16 (idx_main_v17 (ix2 i k)) = ix1 k :=
  funext fun a => Fin.ext (by match a with | ⟨0, _⟩ => rfl)

theorem idx_feat' (i : Fin 8192) (k : Fin 64) : idx_main_v19 (idx_main_v20 (ix2 i k)) = ix1 k :=
  funext fun a => Fin.ext (by match a with | ⟨0, _⟩ => rfl)

/-- Row `i`, feature `k` of the first feature array, scaled. -/
theorem feat_eq (x0 : (⟨S8192x64, .f32⟩ : BufTy).Contents (Elt Ideal)) (x2 : (⟨S64, .f32⟩ : BufTy).Contents (Elt Ideal))
    (i : Fin 8192) (k : Fin 64) : val_main_v18 (F := Ideal) x0 x2 (ix2 i k) = feat x0 x2 i k := by
  rw [val_main_v18_apply, val_main_v17_apply, val_main_v16_apply, idx_feat, scale_eq]
  rfl

/-- Row `i`, feature `k` of the second feature array, scaled. -/
theorem feat_eq' (x1 : (⟨S8192x64, .f32⟩ : BufTy).Contents (Elt Ideal)) (x2 : (⟨S64, .f32⟩ : BufTy).Contents (Elt Ideal))
    (i : Fin 8192) (k : Fin 64) : val_main_v21 (F := Ideal) x1 x2 (ix2 i k) = feat x1 x2 i k := by
  rw [val_main_v21_apply, val_main_v20_apply, val_main_v19_apply, idx_feat', scale_eq]
  rfl

/-- The sum over the features of row `i` reads that row at column `k`. -/
theorem idx_sqn (i : Fin 8192) (k : Fin 64) : idx_main_v23 (ix1 i) k = ix2 i k :=
  funext fun a => Fin.ext (by match a with | ⟨0, _⟩ => rfl | ⟨1, _⟩ => rfl)

theorem idx_sqn' (i : Fin 8192) (k : Fin 64) : idx_main_v25 (ix1 i) k = ix2 i k :=
  funext fun a => Fin.ext (by match a with | ⟨0, _⟩ => rfl | ⟨1, _⟩ => rfl)

/-- The squared norm of scaled row `i` of the first feature array. -/
theorem sqn_eq (x0 : (⟨S8192x64, .f32⟩ : BufTy).Contents (Elt Ideal)) (x2 : (⟨S64, .f32⟩ : BufTy).Contents (Elt Ideal))
    (i : Fin 8192) : val_main_v23 (F := Ideal) x0 x2 (ix1 i) = sqn x0 x2 i := by
  rw [val_main_v23_apply, val_main_cst_4_apply]
  unfold sqn
  refine congrArg (_ + ·) (Finset.sum_congr rfl fun k _ => ?_)
  rw [val_main_v22_apply, idx_sqn, feat_eq]
  rfl

/-- The squared norm of scaled row `j` of the second feature array. -/
theorem sqn_eq' (x1 : (⟨S8192x64, .f32⟩ : BufTy).Contents (Elt Ideal)) (x2 : (⟨S64, .f32⟩ : BufTy).Contents (Elt Ideal))
    (j : Fin 8192) : val_main_v25 (F := Ideal) x1 x2 (ix1 j) = sqn x1 x2 j := by
  rw [val_main_v25_apply, val_main_cst_5_apply]
  unfold sqn
  refine congrArg (_ + ·) (Finset.sum_congr rfl fun k _ => ?_)
  rw [val_main_v24_apply, idx_sqn', feat_eq']
  rfl

/-- The contraction reads row `i` of the first scaled array and, through the transpose, row `j` of the second. -/
theorem idx_crossL (i j : Fin 8192) (k : Fin 64) : lidx_main_v27 (ix2 i j) k = ix2 i k :=
  funext fun a => Fin.ext (by match a with | ⟨0, _⟩ => rfl | ⟨1, _⟩ => rfl)

theorem idx_crossR (i j : Fin 8192) (k : Fin 64) : idx_main_v26 (ridx_main_v27 (ix2 i j) k) = ix2 j k :=
  funext fun a => Fin.ext (by match a with | ⟨0, _⟩ => rfl | ⟨1, _⟩ => rfl)

/-- The inner product of scaled row `i` of the first array and scaled row `j` of the second. -/
theorem cross_eq (x0 x1 : (⟨S8192x64, .f32⟩ : BufTy).Contents (Elt Ideal)) (x2 : (⟨S64, .f32⟩ : BufTy).Contents (Elt Ideal))
    (i j : Fin 8192) : val_main_v27 (F := Ideal) x0 x1 x2 (ix2 i j) = cross x0 x1 x2 i j := by
  rw [val_main_v27_apply]
  unfold cross
  refine Finset.sum_congr rfl fun k _ => ?_
  rw [val_main_v26_apply, idx_crossL, idx_crossR, feat_eq, feat_eq']

/-- The squared norms are spread over the matrix by row (the first) and by column (the second). -/
theorem idx_row (i j : Fin 8192) : idx_main_v28 (idx_main_v30 (ix2 i j)) = ix1 i :=
  funext fun a => Fin.ext (by match a with | ⟨0, _⟩ => rfl)

theorem idx_col (i j : Fin 8192) : idx_main_v29 (idx_main_v31 (ix2 i j)) = ix1 j :=
  funext fun a => Fin.ext (by match a with | ⟨0, _⟩ => rfl)

/-- The last stage of the reference program is the Gram matrix in the reference's arrangement. -/
theorem ref_is_refVal (x0 x1 : (⟨S8192x64, .f32⟩ : BufTy).Contents (Elt Ideal)) (x2 : (⟨S64, .f32⟩ : BufTy).Contents (Elt Ideal))
    (x3 : (⟨S_, .f32⟩ : BufTy).Contents (Elt Ideal)) :
    val_main_v40 (F := Ideal) x0 x1 x2 x3 = refVal x0 x1 x2 x3 := by
  refine funext fun p => ?_
  obtain ⟨i, j, rfl⟩ : ∃ i j, p = ix2 i j := ⟨p 0, p 1, eq_ix2 p⟩
  rw [val_main_v40_apply, val_main_v39_apply, val_main_v38_apply, val_main_v37_apply, val_main_v36_apply,
    val_main_cst_7_apply, val_main_v35_apply, val_main_v32_apply, val_main_v30_apply, val_main_v28_apply,
    val_main_v31_apply, val_main_v29_apply, val_main_v34_apply, val_main_v33_apply, val_main_cst_6_apply,
    idx_row, idx_col, sqn_eq, sqn_eq', cross_eq, show idx_main_v39 (ix2 i j) = ix0 from rfl, amp_eq]
  simp only [Ideal.mulf_def, Ideal.addf_def, Ideal.subf_def, Ideal.hostUnary_exp_def, Ideal.ofBits_def]
  rfl

end Cert.Rbf.Ref

end
-- ==== Proof.KernelHost.lean ====
/-
  What the kernel's four operand arrays hold when the tiled region is entered, as functions of the argument arrays.
  The host lines before the region compute, from `X`, `Z`, the raw length scales and the raw amplitude: the scaled
  features `X̃` and `Z̃` (stored narrowed, which on the extended reals changes nothing), the column
  `-½ · |X̃_i|² + log σ` and the row `-½ · |Z̃_j|²`. The lines up to the scaled features, their squares' row sums and the
  amplitude are, operation for operation, the reference's own first lines, so those stages are named by the reference's
  stages; the few lines after them (keep-dims column, transpose, the two products with -½, the sum with `log σ`) are
  spelt out.
-/
import proofs.«106261_j44865228374551_2_alg».proof.Proof.Gen.KernelIdeal.Frame
import proofs.«106261_j44865228374551_2_alg».proof.Proof.Gen.ReferenceIdeal.Read
import Idealize.ShloMosaic.Lib.StableHlo.Run

set_option maxRecDepth 16384

noncomputable section

namespace Cert.Rbf.Ker

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The four argument arrays of core `c`. -/
abbrev aX (c : Dev nD) := m ((c.tc : Thread nD τ).loc main_arg0)
abbrev aZ (c : Dev nD) := m ((c.tc : Thread nD τ).loc main_arg1)
abbrev aL (c : Dev nD) := m ((c.tc : Thread nD τ).loc main_arg2)
abbrev aS (c : Dev nD) := m ((c.tc : Thread nD τ).loc main_arg3)

set_option maxHeartbeats 2000000 in
/-- Operand 0: the scaled rows of `X`. -/
theorem V_xs (c : Dev nD) :
    V m c main_v22 = Cert.ReferenceIdeal.Read.val_main_v18 (F := Ideal) (aX m c) (aL m c) := by
  dsimp only [V]
  simp only [hostOps0, hostOps0_1, hostOps0_2, hostOps0_3, hostOps0_4, List.flatten_cons, List.flatten_nil, List.append_nil, List.cons_append, List.nil_append]
  after_results_simp
  rfl

set_option maxHeartbeats 2000000 in
/-- Operand 1: the scaled rows of `Z`. -/
theorem V_zs (c : Dev nD) :
    V m c main_v23 = Cert.ReferenceIdeal.Read.val_main_v21 (F := Ideal) (aZ m c) (aL m c) := by
  dsimp only [V]
  simp only [hostOps0, hostOps0_1, hostOps0_2, hostOps0_3, hostOps0_4, List.flatten_cons, List.flatten_nil, List.append_nil, List.cons_append, List.nil_append]
  after_results_simp
  rfl

set_option maxHeartbeats 2000000 in
/-- Operand 2: the column `-½ · |X̃_i|² + log σ`. -/
theorem V_col (c : Dev nD) :
    V m c main_v35 = addf
      (mulf (broadcastInDim S8192x1 ![] bcast_S_S8192x1 (constant (F := Ideal) S_ .f32 0xBF000000#32))
        (broadcastInDim S8192x1 ![0] bcast_S8192_S8192x1_0 (Cert.ReferenceIdeal.Read.val_main_v23 (F := Ideal) (aX m c) (aL m c))))
      (broadcastInDim S8192x1 ![] bcast_S_S8192x1 (Host.log (F := Ideal) (Cert.ReferenceIdeal.Read.val_main_v11 (F := Ideal) (aS m c)))) := by
  dsimp only [V]
  simp only [hostOps0, hostOps0_1, hostOps0_2, hostOps0_3, hostOps0_4, List.flatten_cons, List.flatten_nil, List.append_nil, List.cons_append, List.nil_append]
  after_results_simp
  rfl

set_option maxHeartbeats 2000000 in
/-- Operand 3: the row `-½ · |Z̃_j|²`. -/
theorem V_row (c : Dev nD) :
    V m c main_v37 = mulf
      (broadcastInDim S1x8192 ![] bcast_S_S1x8192 (constant (F := Ideal) S_ .f32 0xBF000000#32))
      (transpose S1x8192 [1, 0] (broadcastInDim S8192x1 ![0] bcast_S8192_S8192x1_0 (Cert.ReferenceIdeal.Read.val_main_v25 (F := Ideal) (aZ m c) (aL m c))) transposes_S8192x1_S1x8192_1_0) := by
  dsimp only [V]
  simp only [hostOps0, hostOps0_1, hostOps0_2, hostOps0_3, hostOps0_4, List.flatten_cons, List.flatten_nil, List.append_nil, List.cons_append, List.nil_append]
  after_results_simp
  rfl

end Cert.Rbf.Ker

end
-- ==== Proof.KernelHostAt.lean ====
/-
  The kernel's four operand arrays, read at an index, in the vocabulary of the specification:
  operand 0 at (i, k) is the scaled feature `X̃_{ik}`, operand 1 at (j, k) is `Z̃_{jk}`, the column at row `i` is
  `-½ · |X̃_i|² + log σ`, and the row at column `j` is `-½ · |Z̃_j|²`.
-/
import proofs.«106261_j44865228374551_2_alg».proof.Proof.KernelHost
import proofs.«106261_j44865228374551_2_alg».proof.Proof.RefValue
import Idealize.ShloMosaic.Lib.ValueIdx
import Idealize.ShloMosaic.Lib.Pipeline.Value

noncomputable section

namespace Cert.Rbf.Ker

open Cert.KernelIdeal Cert.KernelIdeal.Gen Idealize.ShloMosaic Idealize.ShloMosaic.TcCoe Idealize.SL.Sem Idealize.ShloMosaic.ValueIdx Cert.Rbf

variable (m : (ℓ : Loc nD τ sig) → Buf (Elt Ideal) ℓ)

/-- A scalar broadcast to any shape reads the scalar everywhere. -/
theorem splat_at {t : Shape} (h : S_.BroadcastsInDim t (![] : Fin 0 → Fin t.rank)) (x : S_.Idx → EReal) (j : t.Idx) :
    broadcastInDim t ![] h x j = x ix0 :=
  broadcastInDim_apply _ h x j ix0 (fun a => a.elim0)

/-- A vector of row sums kept as an 8192×1 column reads the row's sum. -/
theorem keepdims_at (x : S8192.Idx → EReal) (i : Fin 8192) (z : Fin 1) :
    broadcastInDim S8192x1 ![0] bcast_S8192_S8192x1_0 x (ix2 i z) = x (ix1 i) :=
  broadcastInDim_apply _ bcast_S8192_S8192x1_0 x (ix2 i z) (ix1 i) (fun a => by
    match a with
    | ⟨0, _⟩ => rfl)

/-- The transpose of an 8192×1 column is the 1×8192 row with the same entries. -/
theorem transpose_at (x : S8192x1.Idx → EReal) (j : Fin 8192) (z : Fin 1) :
    transpose S1x8192 [1, 0] x transposes_S8192x1_S1x8192_1_0 (ix2 z j) = x (ix2 j z) :=
  transpose_apply [1, 0] x transposes_S8192x1_S1x8192_1_0 (ix2 z j) (ix2 j z) (fun b => by
    match b with
    | ⟨0, _⟩ => rfl
    | ⟨1, _⟩ => rfl)

/-- Operand 0 at (i, k). -/
theorem xs_at (c : Dev nD) (i : Fin 8192) (k : Fin 64) :
    V m c main_v22 (ix2 i k) = feat (aX m c) (aL m c) i k := by
  rw [V_xs]; exact Ref.feat_eq _ _ i k

/-- Operand 1 at (j, k). -/
theorem zs_at (c : Dev nD) (j : Fin 8192) (k : Fin 64) :
    V m c main_v23 (ix2 j k) = feat (aZ m c) (aL m c) j k := by
  rw [V_zs]; exact Ref.feat_eq' _ _ j k

/-- Operand 2, the column, at row `i`. -/
theorem colv_at (c : Dev nD) (i : Fin 8192) (z : Fin 1) :
    V m c main_v35 (ix2 i z) = wmh * sqn (aX m c) (aL m c) i + Ideal.log (amp (aS m c)) := by
  rw [V_col]
  show broadcastInDim S8192x1 ![] bcast_S_S8192x1 (constant (F := Ideal) S_ .f32 0xBF000000#32) (ix2 i z)
        * broadcastInDim S8192x1 ![0] bcast_S8192_S8192x1_0 (Cert.ReferenceIdeal.Read.val_main_v23 (F := Ideal) (aX m c) (aL m c)) (ix2 i z)
      + broadcastInDim S8192x1 ![] bcast_S_S8192x1 (Host.log (F := Ideal) (Cert.ReferenceIdeal.Read.val_main_v11 (F := Ideal) (aS m c))) (ix2 i z) = _
  rw [splat_at, keepdims_at, splat_at, Ref.sqn_eq]
  show wmh * _ + Ideal.log (Cert.ReferenceIdeal.Read.val_main_v11 (F := Ideal) (aS m c) ix0) = _
  rw [Ref.amp_eq]

/-- Operand 3, the row, at column `j`. -/
theorem rowv_at (c : Dev nD) (j : Fin 8192) (z : Fin 1) :
    V m c main_v37 (ix2 z j) = wmh * sqn (aZ m c) (aL m c) j := by
  rw [V_row]
  show broadcastInDim S1x8192 ![] bcast_S_S1x8192 (constant (F := Ideal) S_ .f32 0xBF000000#32) (ix2 z j)
        * transpose S1x8192 [1, 0] (broadcastInDim S8192x1 ![0] bcast_S8192_S8192x1_0 (Cert.ReferenceIdeal.Read.val_main_v25 (F := Ideal) (aZ m c) (aL m c))) transposes_S8192x1_S1x8192_1_0 (ix2 z j) = _
  rw [splat_at, transpose_at, keepdims_at, Ref.sqn_eq']
  rfl

end Cert.Rbf.Ker

end
-- ==== Proof.KernelBody.lean ====
/-
  One tile of the kernel, element by element. The body loads a 1024×64 block of scaled rows of `X`, a 1024×64 block
  of scaled rows of `Z`, a 1024×1 column and a 1×1024 row, and stores

      exp ((column_p + row_q) + ∑_k xs_{pk} · zs_{qk})

  at position (p, q) of the 1024×1024 tile: the matrix product contracts the feature axis of BOTH blocks (rows of
  `Z` play the part of columns), its accumulator is the zero splat, and the column and the row are broadcast along
  the other axis.
-/
import proofs.«106261_j44865228374551_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.Rbf.Ker

open Cert.KernelIdeal Cert.KernelIdeal.Gen Idealize.ShloMosaic Idealize.ShloMosaic.ValueIdx

/-- The product's record: it contracts axis 1 of both operands. -/
local notation "DD" => dot_S1024x64_S1024x64_S1024x1024_1_1_0_0_n_n

theorem lhs0 (j : S1024x1024.Idx) (q : (DD).contr.Idx) : ((DD).lhsIdx j q 0).val = (j 0).val := by
  unfold DotDims.lhsIdx
  rw [dif_neg (show ¬(0 : Fin S1024x64.rank) ∈ (DD).lhsBatch by decide), dif_pos (show (0 : Fin S1024x64.rank) ∈ (DD).lhsNonContracting by decide)]
  rfl
theorem lhs1 (j : S1024x1024.Idx) (q : (DD).contr.Idx) : ((DD).lhsIdx j q 1).val = (q ⟨0, by decide⟩).val :=
  (DD).lhsIdx_val_of_single rfl j q
theorem rhs0 (j : S1024x1024.Idx) (q : (DD).contr.Idx) : ((DD).rhsIdx j q 0).val = (j 1).val := by
  unfold DotDims.rhsIdx
  rw [dif_neg (show ¬(0 : Fin S1024x64.rank) ∈ (DD).rhsBatch by decide), dif_pos (show (0 : Fin S1024x64.rank) ∈ (DD).rhsNonContracting by decide)]
  rfl
theorem rhs1 (j : S1024x1024.Idx) (q : (DD).contr.Idx) : ((DD).rhsIdx j q 1).val = (q ⟨0, by decide⟩).val :=
  (DD).rhsIdx_val_of_single rfl j q

/-- The product into the zero splat at (p, q): the sum over the 64 features of row `p` of the left block times row
    `q` of the right block. -/
theorem matmul_at (a b : FVec Ideal S1024x64 .bf16) (p q : Fin 1024) :
    matmul (F := Ideal) (DD) none a b (constant S1024x1024 .f32 0x00000000#32) (ix2 p q) = ∑ k : Fin 64, a (ix2 p k) * b (ix2 q k) := by
  show FloatOps.matmul (DD) none a b (constant S1024x1024 .f32 0x00000000#32) (ix2 p q) = _
  rw [Ideal.matmul_constant_zero_apply, ← Equiv.sum_comp (contrEquiv1 (DD) 64 rfl rfl).symm]
  refine Finset.sum_congr rfl fun k _ => ?_
  have hk := contrEquiv1_symm_val (DD) 64 rfl rfl k
  have el : (DD).lhsIdx (ix2 p q) ((contrEquiv1 (DD) 64 rfl rfl).symm k) = ix2 p k := funext fun a => Fin.ext (by
    match a with
    | ⟨0, _⟩ => exact lhs0 _ _
    | ⟨1, _⟩ => exact (lhs1 _ _).trans hk)
  have er : (DD).rhsIdx (ix2 p q) ((contrEquiv1 (DD) 64 rfl rfl).symm k) = ix2 q k := funext fun a => Fin.ext (by
    match a with
    | ⟨0, _⟩ => exact rhs0 _ _
    | ⟨1, _⟩ => exact (rhs1 _ _).trans hk)
  rw [el, er]

/-- A 1024×1 column broadcast along the second axis reads its row's entry. -/
theorem col_at (v : FVec Ideal S1024x1 .f32) (p q : Fin 1024) :
    broadcastTo S1024x1024 v broadcasts_S1024x1_S1024x1024 (ix2 p q) = v (ix2 p 0) :=
  broadcastTo_apply v broadcasts_S1024x1_S1024x1024 (ix2 p q) (ix2 p 0) (fun a => by
    match a with
    | ⟨0, _⟩ => rfl
    | ⟨1, _⟩ => rfl)

/-- A 1×1024 row broadcast along the first axis reads its column's entry. -/
theorem row_at (v : FVec Ideal S1x1024 .f32) (p q : Fin 1024) :
    broadcastTo S1024x1024 v broadcasts_S1x1024_S1024x1024 (ix2 p q) = v (ix2 0 q) :=
  broadcastTo_apply v broadcasts_S1x1024_S1024x1024 (ix2 p q) (ix2 0 q) (fun a => by
    match a with
    | ⟨0, _⟩ => rfl
    | ⟨1, _⟩ => rfl)

/-- The stored tile at (p, q). -/
theorem pay_at (x0 x1 : Vec Ideal S1024x64 .bf16) (x2 : Vec Ideal S1024x1 .f32) (x3 : Vec Ideal S1x1024 .f32) (p q : Fin 1024) :
    k0_pay1 x0 x1 x2 x3 (ix2 p q)
      = Ideal.exp ((x2 (ix2 p 0) + x3 (ix2 0 q)) + ∑ k : Fin 64, x0 (ix2 p k) * x1 (ix2 q k)) := by
  unfold k0_pay1
  simp only [shapeCast_self]
  show Ideal.exp ((broadcastTo S1024x1024 x2 broadcasts_S1024x1_S1024x1024 (ix2 p q)
      + broadcastTo S1024x1024 x3 broadcasts_S1x1024_S1024x1024 (ix2 p q))
      + matmul (F := Ideal) (DD) none x0 x1 (constant S1024x1024 .f32 0x00000000#32) (ix2 p q)) = _
  rw [col_at, row_at, matmul_at]

end Cert.Rbf.Ker

end
-- ==== Proof.KernelArray.lean ====
/-
  From tiles to the whole output array. The grid has 8 × 8 points; point `t` = (a, b) fetches rows
  `1024·a … 1024·a + 1023` of the scaled `X` and of the column, rows `1024·b … 1024·b + 1023` of the scaled `Z` and the
  matching stretch of the row, and writes back the 1024 × 1024 tile at (a, b) of the output. Entry (p, q) of that tile is
  `exp ((col_I + row_J) + ∑_k X̃_{Ik} · Z̃_{Jk})` with `I = 1024·a + p`, `J = 1024·b + q`: the specification's kernel
  arrangement at (I, J). The 64 tiles cover the array, so after the run the array IS that function.
-/
import proofs.«106261_j44865228374551_2_alg».proof.Proof.KernelHostAt
import proofs.«106261_j44865228374551_2_alg».proof.Proof.KernelBody
import proofs.«106261_j44865228374551_2_alg».proof.Proof.Gen.KernelIdeal.Value

set_option maxRecDepth 16384

noncomputable section

namespace Cert.Rbf.Ker

open Cert.KernelIdeal Cert.KernelIdeal.Gen Idealize.ShloMosaic Idealize.ShloMosaic.TcCoe Idealize.SL.Sem Idealize.ShloMosaic.ValueIdx Cert.Rbf
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block indices of the five windows at a grid point, relative to the output's: the two feature blocks and the
    column follow the output's row block or column block, and never move along their other axis. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every tile position is some point's. -/
theorem idx_onto : ∀ (a b : Fin 8), ∃ t : Fin cfg0.N, win0_4.index t = ![a.val, b.val] :=
  (by decide +kernel : ∀ (a b : Fin 8), ∃ t : Fin grid0.N, win0_4.index t = ![a.val, b.val])

/-- The left feature block of point `t` at (p, k). -/
theorem blk_xs (c : Dev nD) (t : Fin cfg0.N) (p : Fin 1024) (k : Fin 64) (I : Fin 8192)
    (hI : I.val = win0_4.index t (0 : Fin 2) * 1024 + p.val) :
    iblk m c 0 t (ix2 p k) = feat (aX m c) (aL m c) I k := by
  obtain ⟨e0, e1, -, -, -, -, -, -, -, -⟩ := idx_facts t
  show V m c main_v22 (((cfg0.win 0).blk t).view.emb (ix2 p k)) = _
  have h : ((cfg0.win 0).blk t).view.emb (ix2 p k) = ix2 I k := funext fun a => Fin.ext (by
    match a with
    | ⟨0, _⟩ => show win0_0.index t (0 : Fin 2) * 1024 + 1 * p.val = I.val; omega
    | ⟨1, _⟩ => show win0_0.index t (1 : Fin 2) * 64 + 1 * k.val = k.val; omega)
  rw [h, xs_at]

/-- The right feature block of point `t` at (q, k). -/
theorem blk_zs (c : Dev nD) (t : Fin cfg0.N) (q : Fin 1024) (k : Fin 64) (J : Fin 8192)
    (hJ : J.val = win0_4.index t (1 : Fin 2) * 1024 + q.val) :
    iblk m c 1 t (ix2 q k) = feat (aZ m c) (aL m c) J k := by
  obtain ⟨-, -, e0, e1, -, -, -, -, -, -⟩ := idx_facts t
  show V m c main_v23 (((cfg0.win 1).blk t).view.emb (ix2 q k)) = _
  have h : ((cfg0.win 1).blk t).view.emb (ix2 q k) = ix2 J k := funext fun a => Fin.ext (by
    match a with
    | ⟨0, _⟩ => show win0_1.index t (0 : Fin 2) * 1024 + 1 * q.val = J.val; omega
    | ⟨1, _⟩ => show win0_1.index t (1 : Fin 2) * 64 + 1 * k.val = k.val; omega)
  rw [h, zs_at]

/-- The column block of point `t` at row p. -/
theorem blk_col (c : Dev nD) (t : Fin cfg0.N) (p : Fin 1024) (I : Fin 8192)
    (hI : I.val = win0_4.index t (0 : Fin 2) * 1024 + p.val) :
    iblk m c 2 t (ix2 p 0) = wmh * sqn (aX m c) (aL m c) I + Ideal.log (amp (aS m c)) := by
  obtain ⟨-, -, -, -, e0, e1, -, -, -, -⟩ := idx_facts t
  show V m c main_v35 (((cfg0.win 2).blk t).view.emb (ix2 p 0)) = _
  have h : ((cfg0.win 2).blk t).view.emb (ix2 p 0) = ix2 I (0 : Fin 1) := funext fun a => Fin.ext (by
    match a with
    | ⟨0, _⟩ => show win0_2.index t (0 : Fin 2) * 1024 + 1 * p.val = I.val; omega
    | ⟨1, _⟩ => show win0_2.index t (1 : Fin 2) * 1 + 1 * 0 = 0; omega)
  rw [h, colv_at]

/-- The row block of point `t` at column q. -/
theorem blk_row (c : Dev nD) (t : Fin cfg0.N) (q : Fin 1024) (J : Fin 8192)
    (hJ : J.val = win0_4.index t (1 : Fin 2) * 1024 + q.val) :
    iblk m c 3 t (ix2 0 q) = wmh * sqn (aZ m c) (aL m c) J := by
  obtain ⟨-, -, -, -, -, -, e0, e1, -, -⟩ := idx_facts t
  show V m c main_v37 (((cfg0.win 3).blk t).view.emb (ix2 0 q)) = _
  have h : ((cfg0.win 3).blk t).view.emb (ix2 0 q) = ix2 (0 : Fin 1) J := funext fun a => Fin.ext (by
    match a with
    | ⟨0, _⟩ => show win0_3.index t (0 : Fin 2) * 1 + 1 * 0 = 0; omega
    | ⟨1, _⟩ => show win0_3.index t (1 : Fin 2) * 1024 + 1 * q.val = J.val; omega)
  rw [h, rowv_at]

/-- Entry (p, q) of the tile point `t` computes is the specification's kernel arrangement at (I, J), `I` and `J`
    the array coordinates of that entry. -/
theorem tile_at (c : Dev nD) (t : Fin cfg0.N) (p q : Fin 1024) (I J : Fin 8192)
    (hI : I.val = win0_4.index t (0 : Fin 2) * 1024 + p.val) (hJ : J.val = win0_4.index t (1 : Fin 2) * 1024 + q.val) :
    k0_pay1 (iblk m c 0 t) (iblk m c 1 t) (iblk m c 2 t) (iblk m c 3 t) (ix2 p q)
      = kerVal (aX m c) (aZ m c) (aL m c) (aS m c) (ix2 I J) := by
  refine (pay_at (iblk m c 0 t) (iblk m c 1 t) (iblk m c 2 t) (iblk m c 3 t) p q).trans ?_
  rw [blk_col m c t p I hI, blk_row m c t q J hJ]
  show _ = Ideal.exp (((wmh * sqn (aX m c) (aL m c) I + Ideal.log (amp (aS m c))) + wmh * sqn (aZ m c) (aL m c) J)
      + ∑ k : Fin 64, feat (aX m c) (aL m c) I k * feat (aZ m c) (aL m c) J k)
  refine congrArg (fun s => Ideal.exp (((wmh * sqn (aX m c) (aL m c) I + Ideal.log (amp (aS m c))) + wmh * sqn (aZ m c) (aL m c) J) + s))
    (Finset.sum_congr rfl fun k _ => ?_)
  rw [blk_xs m c t p k I hI, blk_zs m c t q k J hJ]

/-- WHAT POINT `t` WRITES BACK is tile `t` of the specification's kernel arrangement. -/
theorem flushed_eq (c : Dev nD) (t : Fin cfg0.N) :
    (dats m 0 c).flushed 4 t
      = ((cfg0.win 4).blk t).view.read (Elt Ideal) (kerVal (aX m c) (aZ m c) (aL m c) (aS m c)) := by
  rw [Cert.KernelIdeal.Value.flushed4]
  unfold out0_4
  rw [View.canon_unit_zero hz]
  simp only [View.ld_unit_zero (S := S1024x64) hz, View.ld_unit_zero (S := S1024x1) hz, View.ld_unit_zero (S := S1x1024) hz]
  obtain ⟨-, -, -, -, -, -, -, -, b0, b1⟩ := idx_facts t
  funext j
  have hj0 : (j 0).val < 1024 := (j 0).isLt
  have hj1 : (j 1).val < 1024 := (j 1).isLt
  show k0_pay1 (iblk m c 0 t) (iblk m c 1 t) (iblk m c 2 t) (iblk m c 3 t) j
      = kerVal (aX m c) (aZ m c) (aL m c) (aS m c) (((cfg0.win 4).blk t).view.emb j)
  have he : ((cfg0.win 4).blk t).view.emb j
      = ix2 (⟨win0_4.index t (0 : Fin 2) * 1024 + (j 0).val, by omega⟩ : Fin 8192) (⟨win0_4.index t (1 : Fin 2) * 1024 + (j 1).val, by omega⟩ : Fin 8192) :=
    funext fun a => Fin.ext (by
      match a with
      | ⟨0, _⟩ => show win0_4.index t (0 : Fin 2) * 1024 + 1 * (j 0).val = win0_4.index t (0 : Fin 2) * 1024 + (j 0).val; omega
      | ⟨1, _⟩ => show win0_4.index t (1 : Fin 2) * 1024 + 1 * (j 1).val = win0_4.index t (1 : Fin 2) * 1024 + (j 1).val; omega)
  rw [he]
  exact (congrArg (k0_pay1 (iblk m c 0 t) (iblk m c 1 t) (iblk m c 2 t) (iblk m c 3 t)) (eq_ix2 (n0 := 1024) (n1 := 1024) j)).trans
    (tile_at m c t (j 0) (j 1) _ _ rfl rfl)

/-- An index of the array is in point `t`'s tile iff each coordinate is in the tile's range on its axis. -/
theorem mem_blk (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v38).slice (win0_4.rect t)).set ↔ _
  rw [View.set_slice_whole, Rect.mem_set_unit]
  exact Iff.rfl

/-- The 64 tiles cover the array: (I, J) is in the tile at (I / 1024, J / 1024). -/
theorem cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- THE ARRAY after the run is the specification's kernel arrangement of the four argument arrays. -/
theorem final (c : Dev nD) :
    (dats m 0 c).arrAt 4 cfg0.N = kerVal (aX m c) (aZ m c) (aL m c) (aS m c) :=
  (dats m 0 c).arrAt_eq_of_cover 4 (kerVal (aX m c) (aZ m c) (aL m c) (aS m c)) (fun t _ => flushed_eq m c t) cover

/-- The kernel's run, its result array named by the specification, the arguments unchanged. -/
theorem run : θ_run defs (onTc (τ := τ) (main (F := Ideal))) ⟨m, fun _ => 0, ρ⟩ fun r => ∀ c : Dev nD,
      r.2.mem ((c : Thread nD τ).loc main_v38) = kerVal (aX m c) (aZ m c) (aL m c) (aS m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.Rbf.Ker

end
-- ==== Proof.lean ====
/-
  The radial-basis-function Gram matrix of two sets of 8192 rows with 64 features each,

      out_{ij} = σ · exp (-½ · ∑_k (X_{ik} - Z_{jk})² / ℓ_k²),   ℓ_k = softplus L_k,  σ = softplus s,

  computed two ways. Both programs scale the features, `X̃_{ik} = X_{ik} · √(1 / ℓ_k²)`, and expand the square:
  `∑_k (X̃_{ik} - Z̃_{jk})² = |X̃_i|² + |Z̃_j|² - 2 ⟨X̃_i, Z̃_j⟩`. The reference then evaluates
  `σ · exp (-½ · ((|X̃_i|² + |Z̃_j|²) - 2 ⟨X̃_i, Z̃_j⟩))` on whole arrays. The kernel folds `-½` and `log σ` into a column
  `-½ |X̃_i|² + log σ` and a row `-½ |Z̃_j|²` beforehand and computes `exp ((column_i + row_j) + ⟨X̃_i, Z̃_j⟩)` tile by
  tile on an 8 × 8 grid of 1024 × 1024 tiles, the inner products by a matrix product of narrowed features (on the
  extended reals narrowing is the identity).

  The two agree where the inputs are finite: then every scaled feature, norm and inner product is a real number and
  `σ` is a positive real, so `exp (a + log σ) = σ · exp a` and the rest is the distributive law of the reals. That is
  the one place the precondition is used. The pieces: the specification and its two arrangements (RbfSpec), their
  equality on finite inputs (RbfLaw), finiteness from the precondition (FiniteArgs), the reference's last stage is
  the reference arrangement (RefValue), the kernel's operands and tiles (KernelHost, KernelHostAt, KernelBody) and
  the whole output array as the kernel arrangement (KernelArray).
-/
import proofs.«106261_j44865228374551_2_alg».proof.Defs
import proofs.«106261_j44865228374551_2_alg».proof.Proof.Gen.Kernel
import proofs.«106261_j44865228374551_2_alg».proof.Proof.Gen.Kernel.Skeleton
import proofs.«106261_j44865228374551_2_alg».proof.Proof.Gen.Kernel.Launch
import proofs.«106261_j44865228374551_2_alg».proof.Proof.Gen.Kernel.Points
import proofs.«106261_j44865228374551_2_alg».proof.Proof.Gen.Kernel.Frame
import proofs.«106261_j44865228374551_2_alg».proof.Proof.Gen.KernelIdeal
import proofs.«106261_j44865228374551_2_alg».proof.Proof.Gen.KernelIdeal.Skeleton
import proofs.«106261_j44865228374551_2_alg».proof.Proof.Gen.KernelIdeal.Launch
import proofs.«106261_j44865228374551_2_alg».proof.Proof.Gen.KernelIdeal.Points
import proofs.«106261_j44865228374551_2_alg».proof.Proof.Gen.KernelIdeal.Frame
import proofs.«106261_j44865228374551_2_alg».proof.Proof.Gen.ReferenceIdeal
import proofs.«106261_j44865228374551_2_alg».proof.Proof.Gen.KernelIdeal.Value
import proofs.«106261_j44865228374551_2_alg».proof.Proof.Gen.ReferenceIdeal.Run
import proofs.«106261_j44865228374551_2_alg».proof.Proof.Gen.ReferenceIdeal.Read
import proofs.«106261_j44865228374551_2_alg».proof.Proof.Gen.Pre_finite_inputs
import proofs.«106261_j44865228374551_2_alg».proof.Proof.RbfSpec
import proofs.«106261_j44865228374551_2_alg».proof.Proof.RbfLaw
import proofs.«106261_j44865228374551_2_alg».proof.Proof.FiniteArgs
import proofs.«106261_j44865228374551_2_alg».proof.Proof.RefValue
import proofs.«106261_j44865228374551_2_alg».proof.Proof.KernelArray
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of array operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- On finite inputs the kernel's output array (the kernel arrangement of the Gram matrix) and the reference's
    (the reference arrangement) are the same function of the four argument arrays. -/
theorem algebraic : Cert.algebraic_KernelIdeal_ReferenceIdeal := by
  intro m ρ m' ρ' hpre hagree
  refine ⟨fun c => Cert.Rbf.kerVal (Cert.Rbf.Ker.aX m c) (Cert.Rbf.Ker.aZ m c) (Cert.Rbf.Ker.aL m c) (Cert.Rbf.Ker.aS m c),
    Cert.Rbf.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.Rbf.Ref.ref_is_refVal, (hagree c).1, (hagree c).2.1,
    (hagree c).2.2.1, (hagree c).2.2.2]
  obtain ⟨hX, hZ, hL, hS⟩ := Cert.Rbf.Fin.finite_of_pre _ _ _ _ (hpre c)
  exact (Cert.Rbf.kerVal_eq_refVal _ _ _ _ hX hZ hL hS).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
